-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : IVec S10000x10000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_c_0 : IVec S_ 32 := constantI S_ 32 0#32
  let main_v4 : IVec S10000x10000 32 := broadcastInDim S10000x10000 ![] bcast_S_S10000x10000 main_c_0
  let main_v5 : IVec S10000x10000 1 := cmpi .eq main_arg1 main_v4
  let main_c_1 : IVec S_ 32 := constantI S_ 32 1#32
  let main_v6 : IVec S10000x10000 32 := broadcastInDim S10000x10000 ![] bcast_S_S10000x10000 main_c_1
  let main_v7 : IVec S10000x10000 1 := cmpi .eq main_arg1 main_v6
  let main_v8 : IVec S10000x10000 1 := ori main_v5 main_v7
  let main_c_2 : IVec S_ 1 := constantI S_ 1 1#1
  let main_v9 : IVec S_ 1 := (fun x v => Host.reduce IntOp.andi x v reducesTo_S10000x10000_S_d0_1 h_S_) main_v8 main_c_2
  let main_v10 : IVec S_ 1 := andi main_v3 main_v9
  main_v10
-- ==== Kernel.lean ====
abbrev S10000x128 : Shape := ⟨2, ![10000, 128]⟩
abbrev S10000x10000 : Shape := ⟨2, ![10000, 10000]⟩
abbrev S400x10000 : Shape := ⟨2, ![400, 10000]⟩
abbrev S400x128 : Shape := ⟨2, ![400, 128]⟩

abbrev nBuf : Space → Nat
  | .hbm => 3
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .i32⟩
  | .hbm, ⟨2, _⟩ => ⟨S10000x128, .f32⟩
  | .local _ .vmem, ⟨0, _⟩ => ⟨S400x10000, .i32⟩
  | .local _ .vmem, ⟨1, _⟩ => ⟨S400x10000, .i32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  h_S400x128 : 0 < S400x128.numel
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .i32 = 32 ∨ (Rect.block (s := S10000x10000) S400x10000.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .i32⟩
  | .hbm, ⟨2, _⟩ => ⟨S_, .i32⟩
  | .hbm, ⟨3, _⟩ => ⟨S10000x10000, .i32⟩
  | .hbm, ⟨4, _⟩ => ⟨S10000x10000, .i1⟩
  | .hbm, ⟨5, _⟩ => ⟨S10000x10000, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.PoolPieces.lean ====
/-
  What one run of the pooling body leaves behind, as values of what it loaded.

  The body has two control cases. At the first grid point it first fills the carried scratch with the
  node-feature array narrowed to bf16, then does what every point does: loads its 400-row block of the
  adjacency array, converts it to bf16, multiplies it with the scratch (a [400,10000] × [10000,128] product
  into a zero accumulator), adds the matching 400 rows of the node-feature array (read straight from the
  resident whole-array window at row offset 400·i) and stores the sum as the point's output block.

  Each lemma below reads the stores the body's run found back as ONE pure term of the loaded contents:
  the scratch after the first point is the narrowed feature array; the output block, in either case, is the
  payload term applied to the adjacency block, the scratch contents and the row slice of the features.
-/
import proofs.«182246_g79061757984936_cont_9to1c4b_501_16_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, as the constant-zero function. -/
theorem hz : (![0, 0] : Fin 2 → Nat) = fun _ => 0 := funext fun a => by fin_cases a <;> rfl

/-- The 400 feature rows the body adds at grid coordinate `i`: the resident feature array read through the
    [400,128] rectangle at row offset `400·i`. -/
abbrev rows (i : grid0.Coords) (x : Vec F S10000x128 .f32) : Vec F S400x128 .f32 :=
  View.ld x (Rect.unit (s := S10000x128) (k0_off1 i) S400x128.size (Facts₀.k0_off1_inb i))

/-- FIRST POINT, the scratch: one whole-buffer store of the narrowed feature array. -/
theorem scratch_A (c : Dev nD) (i : grid0.Coords) (a1 : Memref sig .tc .vmem S400x10000 .i32) (h1 : a1.IsWhole)
    (a2 : Memref sig .tc .vmem S10000x128 .f32) (h2 : a2.IsWhole) (a3 : Memref sig .tc .vmem S400x128 .f32) (h3 : a3.IsWhole)
    (a4 : Memref sig .tc .vmem S10000x128 .bf16) (h4 : a4.IsWhole) (hc : cond0_0 i)
    (x0 : Vec F S400x10000 .i32) (x1 : Vec F S10000x128 .f32) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero hz]
  simp only [View.readAt_eq_ld, h2.read_unread, View.ld_unit_zero (S := S10000x128) hz]

/-- FIRST POINT, the output block: the product reads the scratch back right after the fill, so it multiplies
    with the narrowed feature array. -/
theorem out_A (c : Dev nD) (i : grid0.Coords) (a1 : Memref sig .tc .vmem S400x10000 .i32) (h1 : a1.IsWhole)
    (a2 : Memref sig .tc .vmem S10000x128 .f32) (h2 : a2.IsWhole) (a3 : Memref sig .tc .vmem S400x128 .f32) (h3 : a3.IsWhole)
    (a4 : Memref sig .tc .vmem S10000x128 .bf16) (h4 : a4.IsWhole) (hc : cond0_0 i)
    (x0 : Vec F S400x10000 .i32) (x1 : Vec F S10000x128 .f32) :
    out0_A_2 c i a1 h1 a2 h2 a3 h3 a4 h4 hc x0 x1 = k0_pay2 x0 (k0_pay1 x1) (rows i x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz, View.readCov_unit_zero (S := S10000x128) _ hz]
  simp only [View.readAt_eq_ld, h1.read_unread, h2.read_unread, View.ld_unit_zero (S := S400x10000) hz,
    View.ld_unit_zero (S := S10000x128) hz]
  rfl

/-- EVERY LATER POINT, the output block: the same term over whatever the scratch holds. -/
theorem out_B (c : Dev nD) (i : grid0.Coords) (a1 : Memref sig .tc .vmem S400x10000 .i32) (h1 : a1.IsWhole)
    (a2 : Memref sig .tc .vmem S10000x128 .f32) (h2 : a2.IsWhole) (a3 : Memref sig .tc .vmem S400x128 .f32) (h3 : a3.IsWhole)
    (a4 : Memref sig .tc .vmem S10000x128 .bf16) (h4 : a4.IsWhole) (hc : ¬cond0_0 i)
    (x0 : Vec F S400x10000 .i32) (x1 : Vec F S10000x128 .f32) (xs : Vec F S10000x128 .bf16) :
    out0_B_2 c i a1 h1 a2 h2 a3 h3 a4 h4 hc x0 x1 xs = k0_pay2 x0 xs (rows i x1) := by
  unfold out0_B_2
  rw [View.read_writes_eq_canon _ _ _ (cover0_B_2 c i a1 h1 a2 h2 a3 h3 a4 h4 hc x0 x1 xs)]
  unfold kernelRun0_B
  dsimp only
  rw [View.canon_unit_zero hz]
  simp only [View.readAt_eq_ld, h1.read_unread, h2.read_unread, h4.read_unread, View.ld_unit_zero (S := S400x10000) hz,
    View.ld_unit_zero (S := S10000x128) hz]

end Cert.KernelIdeal.Pieces

end
-- ==== Proof.PoolSweep.lean ====
/-
  The pooling kernel over its 25 grid points.

  The scratch is written once, at the first point, with the narrowed node-feature array, and no later point
  stores into it: so after EVERY point it holds that same array (induction on the point). Hence every point's
  output block is one and the same term: the payload of that point's 400-row adjacency block, the narrowed
  feature array, and the 400 feature rows at the point's row offset.

  The window blocks are then read as functions of the argument arrays: the feature window's block is the whole
  feature array at every point (its index map is constantly (0,0) and its block is the array), the adjacency
  window's block at point t holds rows 400·t … 400·t+399, and the body's own row slice starts at row 400·t.
-/
import proofs.«182246_g79061757984936_cont_9to1c4b_501_16_alg».proof.Proof.PoolPieces
import Idealize.ShloMosaic.Lib.ValueIdx

noncomputable section

open Idealize.ShloMosaic Idealize.ShloMosaic.TcCoe Idealize.SL.Sem
open Idealize.ShloMosaic.Pipeline (Dat)

namespace Cert.KernelIdeal.Sweep

open Cert.KernelIdeal Cert.KernelIdeal.Gen Cert.KernelIdeal.Pieces

variable {F : FTy → Type} [FloatOps F]
variable (m : (ℓ : Loc nD τ sig) → Buf (Elt F) ℓ)

/-- The grid has a first point. -/
theorem hpos : 0 < cfg0.N := by rw [show cfg0.N = 25 from N_0]; decide

/-- The first grid point. -/
abbrev t₀ : Fin cfg0.N := ⟨0, hpos⟩

/-- AFTER EVERY POINT the scratch holds the narrowed feature array the first point stored. -/
theorem scratch_at (c : Dev nD) : ∀ (n : ℕ) (h : n < cfg0.N), (outsAt0 m c n h).2 = k0_pay1 (iblk m c 1 t₀)
  | 0, h => by
    rw [outsAt0_A m c ⟨0, h⟩ rfl]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) scM0_0 (Memref.isWhole_whole _) ((hcond0_0 ⟨0, h⟩).mpr rfl) (iblk m c 0 ⟨0, h⟩) (iblk m c 1 ⟨0, h⟩)
  | n + 1, h => by
    have hN : cfg0.N = 25 := N_0
    have hB : ¬(⟨n + 1, h⟩ : Fin cfg0.N).val % 25 = 0 := by dsimp only; omega
    rw [outsAt0_B m c ⟨n + 1, h⟩ hB]
    dsimp only [sout0_B_0]
    exact scratch_at c n _

/-- EVERY POINT's output block: the payload of its adjacency block, the narrowed feature array, and its 400 feature rows. -/
theorem out_at (c : Dev nD) (t : Fin cfg0.N) :
    (outsAt0 m c t.val t.isLt).1
      = k0_pay2 (iblk m c 0 t) (k0_pay1 (iblk m c 1 t₀)) (rows (grid0.coords t) (iblk m c 1 t)) := by
  have hN : t.val < 25 := lt_of_lt_of_eq t.isLt (show cfg0.N = 25 from N_0)
  by_cases h0 : t.val % 25 = 0
  · have ht : t = t₀ := Fin.ext (by show t.val = 0; omega)
    subst ht
    rw [outsAt0_A m c t₀ h0]
    dsimp only
    exact out_A c (grid0.coords t₀) (ms0_0 t₀) (hs0_0 t₀) (ms0_1 t₀) (hs0_1 t₀) (ms0_2 t₀) (hs0_2 t₀) scM0_0
      (Memref.isWhole_whole _) ((hcond0_0 t₀).mpr h0) (iblk m c 0 t₀) (iblk m c 1 t₀)
  · rw [outsAt0_B m c t h0]
    dsimp only
    refine (out_B c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2).trans ?_
    rw [scratch_at]

/-! ## The blocks as functions of the argument arrays -/

/-- The windows' block indices over the grid: the adjacency window walks the row blocks, the feature window
    stays at (0,0), the output window walks the row blocks; and the body's row offset is 400·t. -/
theorem idx_facts : ∀ t : Fin cfg0.N,
    (win0_0.index t 0 = t.val ∧ win0_0.index t 1 = 0) ∧ (win0_1.index t 0 = 0 ∧ win0_1.index t 1 = 0)
      ∧ (win0_2.index t 0 = t.val ∧ win0_2.index t 1 = 0)
      ∧ (k0_off1 (grid0.coords t) 0 = 400 * t.val ∧ k0_off1 (grid0.coords t) 1 = 0) :=
  (by decide +kernel : ∀ t : Fin grid0.N,
    (win0_0.index t 0 = t.val ∧ win0_0.index t 1 = 0) ∧ (win0_1.index t 0 = 0 ∧ win0_1.index t 1 = 0)
      ∧ (win0_2.index t 0 = t.val ∧ win0_2.index t 1 = 0)
      ∧ (k0_off1 (grid0.coords t) 0 = 400 * t.val ∧ k0_off1 (grid0.coords t) 1 = 0))

/-- The feature window's block IS the feature array, at every point. -/
theorem feat_blk (c : Dev nD) (t : Fin cfg0.N) :
    (iblk m c 1 t : Vec F S10000x128 .f32) = m ((c : Thread nD τ).loc main_arg0) := by
  funext j
  unfold iblk
  rw [View.read_apply]
  show V m c main_arg0 _ = m (c.tc.loc main_arg0) _
  unfold V
  congr 1
  funext a
  apply Fin.ext
  match a with
  | ⟨0, _⟩ => show win0_1.index t 0 * 10000 + 1 * (j 0).val = (j 0).val; rw [(idx_facts t).2.1.1]; omega
  | ⟨1, _⟩ => show win0_1.index t 1 * 128 + 1 * (j 1).val = (j 1).val; rw [(idx_facts t).2.1.2]; omega

/-- Row `400·t + r` of a 10000-row array, for `t` a grid point and `r` a row of a block. -/
abbrev row (t : Fin cfg0.N) (r : Fin 400) : Fin 10000 :=
  ⟨400 * t.val + r.val, by have := lt_of_lt_of_eq t.isLt (show cfg0.N = 25 from N_0); have := r.isLt; omega⟩

/-- The adjacency window's block at point `t`, at (r, k): the adjacency array at (400·t + r, k). -/
theorem adj_blk_apply (c : Dev nD) (t : Fin cfg0.N) (r : Fin 400) (k : Fin 10000) :
    (iblk m c 0 t : Vec F S400x10000 .i32) (ValueIdx.ix2 r k)
      = m ((c : Thread nD τ).loc main_arg1) (ValueIdx.ix2 (row t r) k) := by
  unfold iblk
  rw [View.read_apply]
  show V m c main_arg1 _ = m (c.tc.loc main_arg1) _
  unfold V
  congr 1
  funext a
  apply Fin.ext
  match a with
  | ⟨0, _⟩ => show win0_0.index t 0 * 400 + 1 * r.val = 400 * t.val + r.val; rw [(idx_facts t).1.1]; omega
  | ⟨1, _⟩ => show win0_0.index t 1 * 10000 + 1 * k.val = k.val; rw [(idx_facts t).1.2]; omega

/-- The body's row slice at point `t`, at (r, q): the array at (400·t + r, q). -/
theorem rows_apply (t : Fin cfg0.N) (x : Vec F S10000x128 .f32) (r : Fin 400) (q : Fin 128) :
    rows (grid0.coords t) x (ValueIdx.ix2 r q) = x (ValueIdx.ix2 (row t r) q) := by
  show x _ = x _
  congr 1
  funext a
  apply Fin.ext
  match a with
  | ⟨0, _⟩ => show k0_off1 (grid0.coords t) 0 + 1 * r.val = 400 * t.val + r.val; rw [(idx_facts t).2.2.2.1]; omega
  | ⟨1, _⟩ => show k0_off1 (grid0.coords t) 1 + 1 * q.val = q.val; rw [(idx_facts t).2.2.2.2]; omega

end Cert.KernelIdeal.Sweep

end
-- ==== Proof.PoolSpec.lean ====
/-
  Graph pooling over a dense 0/1 adjacency array, as one function of the two argument arrays.

  For node features x : [10000,128] and adjacency words a : [10000,10000],

      poolSum x a (i, q) = (∑ k, ind (a (i, k)) · x (k, q)) + x (i, q),

  where ind w is 1 when the word w is 1 and 0 otherwise: the sum of the feature rows of the neighbours of node
  i, plus node i's own row. Everything is an extended real; the sum is over the 10000 nodes.

  The one fact about numbers needed later: a word that is 0 or 1, read as a signed integer, is its own
  indicator. That is what lets "convert the adjacency word to a float" stand in for "test the word against 1".
-/
import Idealize.ShloMosaic.PureOps.Ideal
import Idealize.ShloMosaic.Lib.ValueIdx

noncomputable section

namespace Cert.PoolSpec

open Idealize.ShloMosaic

/-- The node-feature array's shape and the adjacency array's. -/
abbrev SX : Shape := ⟨2, ![10000, 128]⟩
abbrev SA : Shape := ⟨2, ![10000, 10000]⟩

/-- The indicator of "the word is 1", as an extended real. -/
def ind (w : BitVec 32) : EReal := (((IntOp.cmpi .eq w 1#32).toNat : ℝ) : EReal)

/-- Entry (i, k) of the adjacency array and entry (k, q) of the feature array, for output index (i, q). -/
abbrev adjAt (i : SX.Idx) (k : Fin 10000) : SA.Idx := ValueIdx.ix2 (n0 := 10000) (n1 := 10000) ⟨(i 0).val, (i 0).isLt⟩ k
abbrev featAt (i : SX.Idx) (k : Fin 10000) : SX.Idx := ValueIdx.ix2 (n0 := 10000) (n1 := 128) k ⟨(i 1).val, (i 1).isLt⟩

/-- Neighbour-sum pooling with the self term. -/
def poolSum (x : SX.Idx → EReal) (a : SA.Idx → BitVec 32) : SX.Idx → EReal :=
  fun i => (∑ k : Fin 10000, ind (a (adjAt i k)) * x (featAt i k)) + x i

/-- A word that is 0 or 1, read as a signed integer, is its own indicator. -/
theorem toInt_eq_ind (w : BitVec 32) (h : w = 0#32 ∨ w = 1#32) : (((w.toInt : ℤ) : ℝ) : EReal) = ind w := by
  rcases h with rfl | rfl
  · have e : IntOp.cmpi .eq (0#32) (1#32) = 0#1 := by decide
    simp [ind, e]
  · have e : IntOp.cmpi .eq (1#32) (1#32) = 1#1 := by decide
    simp [ind, e]

end Cert.PoolSpec

end
-- ==== Proof.PoolValue.lean ====
/-
  The pooling kernel's result array, at the exact (extended-real) reading, is neighbour-sum pooling of its arguments.

  At this reading narrowing to bf16 is the identity, so the carried scratch holds the feature array itself, and the
  matrix product into a zero accumulator is a plain sum over the 10000 contracted nodes. Entry (r, q) of the block point t
  writes back is therefore

      x (400·t + r, q) + ∑ k, (a (400·t + r, k) read as a signed integer) · x (k, q).

  Under the precondition every adjacency word is 0 or 1, so the signed reading is the indicator of "the word is 1", and
  with the two summands swapped (addition of extended reals commutes) this is entry (400·t + r, q) of the pooling
  function. The 25 blocks of 400 rows tile the 10000 rows (row i lies in block i / 400), so the array ends holding the
  pooling function everywhere.
-/
import proofs.«182246_g79061757984936_cont_9to1c4b_501_16_alg».proof.Proof.PoolSweep
import proofs.«182246_g79061757984936_cont_9to1c4b_501_16_alg».proof.Proof.PoolSpec
import proofs.«182246_g79061757984936_cont_9to1c4b_501_16_alg».proof.Proof.Gen.KernelIdeal.Value
import Idealize.ShloMosaic.PureOps.Ideal.Laws
import Idealize.ShloMosaic.Lib.ValueIdx

noncomputable section

open Idealize.ShloMosaic Idealize.ShloMosaic.TcCoe Idealize.SL.Sem
open Idealize.ShloMosaic.Pipeline (Dat)

namespace Cert.KernelIdeal.PoolValue

open Cert.KernelIdeal Cert.KernelIdeal.Gen Cert.KernelIdeal.Pieces Cert.KernelIdeal.Sweep Cert.PoolSpec
open Idealize.ShloMosaic.ValueIdx (ix2 eq_ix2)

/-! ## The body's arithmetic at an index -/

/-- The product's dimension record: rows × contraction times contraction × columns. -/
abbrev D : DotDims S400x10000 S10000x128 S400x128 := dot_S400x10000_S10000x128_S400x128_1_0_0_1_n_n

theorem lhs_row (i : S400x128.Idx) (p : D.contr.Idx) : (D.lhsIdx i p 0).val = (i 0).val := by
  unfold DotDims.lhsIdx
  rw [dif_neg (show ¬(0 : Fin S400x10000.rank) ∈ D.lhsBatch by decide), dif_pos (show (0 : Fin S400x10000.rank) ∈ D.lhsNonContracting by decide)]
  rfl
theorem lhs_contr (i : S400x128.Idx) (p : D.contr.Idx) : (D.lhsIdx i p 1).val = (p ⟨0, by decide⟩).val :=
  D.lhsIdx_val_of_single rfl i p
theorem rhs_contr (i : S400x128.Idx) (p : D.contr.Idx) : (D.rhsIdx i p 0).val = (p ⟨0, by decide⟩).val :=
  D.rhsIdx_val_of_single rfl i p
theorem rhs_col (i : S400x128.Idx) (p : D.contr.Idx) : (D.rhsIdx i p 1).val = (i 1).val := by
  unfold DotDims.rhsIdx
  rw [dif_neg (show ¬(1 : Fin S10000x128.rank) ∈ D.rhsBatch by decide), dif_pos (show (1 : Fin S10000x128.rank) ∈ D.rhsNonContracting by decide)]
  rfl

/-- Narrowing to bf16 is the identity on extended reals. -/
theorem narrow_eq (x : Vec Ideal S10000x128 .f32) : k0_pay1 (F := Ideal) x = x := by
  unfold k0_pay1
  simp only [shapeCast_self]
  rfl

/-- THE OUTPUT PAYLOAD at (r, q): the added row entry plus the sum over the contracted nodes of the adjacency word,
    read as a signed integer, times the scratch entry. -/
theorem pay_apply (v3 : Vec Ideal S400x10000 .i32) (v5 : FVec Ideal S10000x128 .bf16) (v9 : FVec Ideal S400x128 .f32)
    (r : Fin 400) (q : Fin 128) :
    k0_pay2 (F := Ideal) v3 v5 v9 (ix2 r q)
      = v9 (ix2 r q) + ∑ k : Fin 10000, ((((v3 (ix2 r k)).toInt : ℤ) : ℝ) : EReal) * v5 (ix2 k q) := by
  unfold k0_pay2
  show v9 (ix2 r q) + FloatOps.matmul D none (sitofp (F := Ideal) .bf16 v3) v5 (constant (F := Ideal) S400x128 .f32 0x00000000#32) (ix2 r q) = _
  refine congrArg (v9 (ix2 r q) + ·) ?_
  refine (Ideal.matmul_constant_zero_apply D none _ _ _).trans ?_
  rw [← Equiv.sum_comp (ValueIdx.contrEquiv1 D 10000 rfl rfl).symm]
  refine Finset.sum_congr rfl fun k _ => ?_
  have hk := ValueIdx.contrEquiv1_symm_val D 10000 rfl rfl k
  have el : D.lhsIdx (ix2 r q) ((ValueIdx.contrEquiv1 D 10000 rfl rfl).symm k) = ix2 r k := funext fun a => Fin.ext (by
    match a with
    | ⟨0, _⟩ => exact lhs_row _ _
    | ⟨1, _⟩ => exact (lhs_contr _ _).trans hk)
  have er : D.rhsIdx (ix2 r q) ((ValueIdx.contrEquiv1 D 10000 rfl rfl).symm k) = ix2 k q := funext fun a => Fin.ext (by
    match a with
    | ⟨0, _⟩ => exact (rhs_contr _ _).trans hk
    | ⟨1, _⟩ => exact rhs_col _ _)
  rw [el, er]
  rfl

/-! ## A point's block is a block of the pooling function -/

variable (m : (ℓ : Loc nD τ sig) → Buf (Elt Ideal) ℓ) (ρ : Dev nD → PrngReg)

/-- The pooling function of core `c`'s argument arrays as launched. -/
abbrev pooled (c : Dev nD) : Buf (Elt Ideal) ((c : Thread nD τ).loc main_v0) :=
  poolSum (m ((c : Thread nD τ).loc main_arg0)) (m ((c : Thread nD τ).loc main_arg1))

/-- ENTRY (r, q) OF POINT t's BLOCK is entry (400·t + r, q) of the pooling function, when the adjacency words are bits. -/
theorem block_apply (c : Dev nD)
    (hadj : ∀ j, m ((c : Thread nD τ).loc main_arg1) j = 0#32 ∨ m ((c : Thread nD τ).loc main_arg1) j = 1#32)
    (t : Fin cfg0.N) (r : Fin 400) (q : Fin 128) :
    k0_pay2 (F := Ideal) (iblk m c 0 t) (k0_pay1 (iblk m c 1 t₀)) (rows (grid0.coords t) (iblk m c 1 t)) (ix2 r q)
      = pooled m c (ix2 (row t r) q) := by
  refine (pay_apply _ _ _ r q).trans ?_
  rw [rows_apply, feat_blk, narrow_eq, feat_blk]
  show _ = (∑ k : Fin 10000, ind (m ((c : Thread nD τ).loc main_arg1) (ix2 (row t r) k))
      * m ((c : Thread nD τ).loc main_arg0) (ix2 k q)) + m ((c : Thread nD τ).loc main_arg0) (ix2 (row t r) q)
  rw [add_comm]
  refine congrArg (· + m ((c : Thread nD τ).loc main_arg0) (ix2 (row t r) q)) ?_
  refine Finset.sum_congr rfl fun k _ => ?_
  rw [adj_blk_apply, toInt_eq_ind _ (hadj _)]

/-! ## From the blocks to the array -/

/-- WHAT POINT t WRITES BACK is block t of the pooling function. -/
theorem flushed_eq (c : Dev nD)
    (hadj : ∀ j, m ((c : Thread nD τ).loc main_arg1) j = 0#32 ∨ m ((c : Thread nD τ).loc main_arg1) j = 1#32)
    (t : Fin cfg0.N) :
    (dats m 0 c).flushed 2 t = ((cfg0.win 2).blk t).view.read (Elt Ideal) (pooled m c) := by
  show (cfg0.win 2).cut (grid0.coords t) ((dats m 0 c).after 2 t) = _
  rw [after0_2, out_at]
  funext j
  have hj0 : (j 0).val < 400 := (j 0).isLt
  have hj1 : (j 1).val < 128 := (j 1).isLt
  have ej : (j : S400x128.Idx) = ix2 (⟨(j 0).val, hj0⟩ : Fin 400) (⟨(j 1).val, hj1⟩ : Fin 128) :=
    funext fun a => by match a with | ⟨0, _⟩ => rfl | ⟨1, _⟩ => rfl
  show k0_pay2 (F := Ideal) (iblk m c 0 t) (k0_pay1 (iblk m c 1 t₀)) (rows (grid0.coords t) (iblk m c 1 t)) j
    = pooled m c (((cfg0.win 2).blk t).view.emb j)
  refine (congrArg (k0_pay2 (F := Ideal) (iblk m c 0 t) (k0_pay1 (iblk m c 1 t₀)) (rows (grid0.coords t) (iblk m c 1 t))) ej).trans ?_
  refine (block_apply m c hadj t ⟨(j 0).val, hj0⟩ ⟨(j 1).val, hj1⟩).trans (congrArg (pooled m c) ?_)
  funext a
  apply Fin.ext
  match a with
  | ⟨0, _⟩ => show 400 * t.val + (j 0).val = win0_2.index t 0 * 400 + 1 * (j 0).val; rw [(idx_facts t).2.2.1.1]; omega
  | ⟨1, _⟩ => show (j 1).val = win0_2.index t 1 * 128 + 1 * (j 1).val; rw [(idx_facts t).2.2.1.2]; omega

/-- An index of the array is in point t's block iff each coordinate is in the block's range on its axis. -/
theorem mem_blk (t : Fin cfg0.N) (i : S10000x128.Idx) :
    i ∈ ((cfg0.win 2).blk t).view.set ↔ ∀ a : Fin 2, win0_2.index t a * S400x128.size a ≤ (i a).val ∧ (i a).val < win0_2.index t a * S400x128.size a + S400x128.size a := by
  show i ∈ ((View.whole main_v0).slice (win0_2.rect t)).set ↔ _
  rw [View.set_slice_whole, Rect.mem_set_unit]
  exact Iff.rfl

/-- THE BLOCKS TILE THE ARRAY: row i lies in the block of point i / 400. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 25 := N_0
  have ht : (i 0).val / 400 < cfg0.N := by rw [hN]; omega
  refine ⟨⟨(i 0).val / 400, ht⟩, flush0_2 _, ?_⟩
  rw [mem_blk]
  intro a
  obtain ⟨-, -, ⟨e0, e1⟩, -⟩ := idx_facts ⟨(i 0).val / 400, ht⟩
  match a with
  | ⟨0, _⟩ =>
    show win0_2.index ⟨(i 0).val / 400, ht⟩ 0 * 400 ≤ (i 0).val ∧ (i 0).val < win0_2.index ⟨(i 0).val / 400, ht⟩ 0 * 400 + 400
    rw [e0]; show (i 0).val / 400 * 400 ≤ (i 0).val ∧ (i 0).val < (i 0).val / 400 * 400 + 400; omega
  | ⟨1, _⟩ =>
    show win0_2.index ⟨(i 0).val / 400, ht⟩ 1 * 128 ≤ (i 1).val ∧ (i 1).val < win0_2.index ⟨(i 0).val / 400, ht⟩ 1 * 128 + 128
    rw [e1]; omega

/-- THE RESULT ARRAY after the run is the pooling function of the arguments. -/
theorem final (c : Dev nD)
    (hadj : ∀ j, m ((c : Thread nD τ).loc main_arg1) j = 0#32 ∨ m ((c : Thread nD τ).loc main_arg1) j = 1#32) :
    (dats m 0 c).arrAt 2 cfg0.N = pooled m c :=
  (dats m 0 c).arrAt_eq_of_cover 2 (pooled m c) (fun t _ => flushed_eq m c hadj t) cover

/-- THE RUN, READ: every weakly fair execution ends with the result array at the pooling function of the arguments
    and the arguments as launched — when every core's adjacency words are bits. -/
theorem run (hadj : ∀ (c : Dev nD) j, m ((c : Thread nD τ).loc main_arg1) j = 0#32 ∨ m ((c : Thread nD τ).loc main_arg1) j = 1#32) :
    θ_run defs (onTc (τ := τ) (main (F := Ideal))) ⟨m, fun _ => 0, ρ⟩ fun r => ∀ c : Dev nD,
      r.2.mem ((c : Thread nD τ).loc main_v0) = pooled m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hadj c)), (h c).2⟩)
    (Cert.KernelIdeal.Value.run_blocks m ρ)

end Cert.KernelIdeal.PoolValue

end
-- ==== Proof.PoolRef.lean ====
/-
  The reference computes neighbour-sum pooling, read index by index at the exact (extended-real) reading.

  Its five operations are: splat the word 1; test the adjacency array against it; convert the one-bit result to a
  float (1 where the word is 1, else 0); contract that [10000,10000] array with the [10000,128] feature array over the
  node axis (a plain sum over the 10000 nodes at this reading); add the feature array. At index (i, q) this is
  (∑ k, ind (a (i, k)) · x (k, q)) + x (i, q): the pooling function.
-/
import proofs.«182246_g79061757984936_cont_9to1c4b_501_16_alg».proof.Proof.PoolSpec
import proofs.«182246_g79061757984936_cont_9to1c4b_501_16_alg».proof.Proof.Gen.ReferenceIdeal.Read

noncomputable section

namespace Cert.ReferenceIdeal.PoolRef

open Cert.ReferenceIdeal Cert.ReferenceIdeal.Read Cert.PoolSpec Idealize.ShloMosaic

/-- The contraction's left index at (i, k) is the adjacency entry (i, k); -/
theorem lidx_eq (i : S10000x128.Idx) (k : Fin 10000) : lidx_main_v3 i k = adjAt i k :=
  funext fun a => by match a with | ⟨0, _⟩ => rfl | ⟨1, _⟩ => rfl

/-- its right index is the feature entry (k, q). -/
theorem ridx_eq (i : S10000x128.Idx) (k : Fin 10000) : ridx_main_v3 i k = featAt i k :=
  funext fun a => by match a with | ⟨0, _⟩ => rfl | ⟨1, _⟩ => rfl

/-- THE REFERENCE'S RESULT STAGE is the pooling function of its arguments. -/
theorem stage_eq (x : (⟨S10000x128, .f32⟩ : BufTy).Contents (Elt Ideal)) (a : (⟨S10000x10000, .i32⟩ : BufTy).Contents (Elt Ideal)) :
    val_main_v4 (F := Ideal) x a = poolSum x a := by
  funext i
  rw [val_main_v4_apply, val_main_v3_apply]
  show (∑ k : Fin 10000, val_main_v2 (F := Ideal) a (lidx_main_v3 i k) * x (ridx_main_v3 i k)) + x i = _
  unfold poolSum
  refine congrArg (· + x i) (Finset.sum_congr rfl fun k _ => ?_)
  rw [val_main_v2_apply, val_main_v1_apply, val_main_v0_apply, val_main_c_apply, lidx_eq, ridx_eq]
  rfl

end Cert.ReferenceIdeal.PoolRef

end
-- ==== Proof.PoolPre.lean ====
/-
  What the precondition says about the adjacency array.

  The precondition is the conjunction of "every feature is finite" and "every adjacency word is 0 or 1", each an
  all-reduce by `and` of an elementwise test, joined by one more `and`. Only the second conjunct is used: the
  reduce being 1 gives the test at every index, the test is the `or` of two equality tests against the splatted
  words 0 and 1, and an equality test that is 1 is an equality.
-/
import proofs.«182246_g79061757984936_cont_9to1c4b_501_16_alg».proof.Pre_finite_inputs
import Idealize.ShloMosaic.Lib.ReduceAll
import Idealize.ShloMosaic.Lib.Affine
import Idealize.ShloMosaic.Lib.ValueIdx
import Idealize.ShloMosaic.Lib.Pipeline.Value

noncomputable section

namespace Cert.PoolPre

open Idealize.ShloMosaic Cert.Pre_finite_inputs

variable [hF : Cert.Pre_finite_inputs.Facts]

/-- The rank-0 shape has one index. -/
instance : Subsingleton S_.Idx := ⟨fun a b => funext fun d => d.elim0⟩

/-- A splatted word, at any index, is the word. -/
theorem splat_apply (w : BitVec 32) (j : S10000x10000.Idx) :
    (broadcastInDim S10000x10000 ![] Facts.bcast_S_S10000x10000 (constantI S_ 32 w) : IVec S10000x10000 32) j = w :=
  broadcastInDim_apply _ Facts.bcast_S_S10000x10000 (constantI S_ 32 w) j (fun a => a.elim0) (fun a => a.elim0)

/-- UNDER THE PRECONDITION every adjacency word is 0 or 1. -/
theorem adj_bit {F : FTy → Type} [FloatOps F] (x : FVec F S10000x128 .f32) (a : IVec S10000x10000 32)
    (h : Cert.Pre_finite_inputs.fn (F := F) x a = fun _ => 1#1) (j : S10000x10000.Idx) :
    a j = 0#32 ∨ a j = 1#32 := by
  have h0 := congrFun h (fun d => d.elim0)
  dsimp only [Cert.Pre_finite_inputs.fn] at h0
  have h1 : Host.reduce IntOp.andi _ _ Facts.reducesTo_S10000x10000_S_d0_1 Facts.h_S_ (fun d => d.elim0) = 1#1 :=
    (IntOp.andi_eq_one.mp h0).2
  have h2 := Host.reduce_andi_all _ _ _ _ _ h1 j
  rcases IntOp.ori_eq_one.mp h2 with e | e
  · exact Or.inl ((IntOp.cmpi_eq.mp e).trans (splat_apply 0#32 j))
  · exact Or.inr ((IntOp.cmpi_eq.mp e).trans (splat_apply 1#32 j))

end Cert.PoolPre

end
-- ==== Proof.lean ====
/-
  Graph pooling, out[i] = x[i] + ∑_{j : adj[i,j] = 1} x[j], for x : f32[10000,128] and a dense adjacency adj : i32[10000,10000]
  whose words are 0 or 1: a tiled kernel against the jnp reference (adj == 1) @ x + x.

  The kernel walks 25 blocks of 400 rows. At the first block it copies x, narrowed to bf16, into a scratch that every
  later block reuses; each block converts its 400 × 10000 adjacency rows to bf16, multiplies them with the scratch into
  a zero accumulator, and adds its own 400 rows of x. Read exactly (floats as extended reals, a change of float format
  the identity, a matrix product a plain sum), entry (i, q) of the result is

      x (i, q) + ∑ k, (adj (i, k) as a signed integer) · x (k, q),

  while the reference computes (∑ k, [adj (i, k) = 1] · x (k, q)) + x (i, q). A word that is 0 or 1 is its own indicator,
  and addition of extended reals commutes: the two agree term by term. No finiteness of x is needed (0 · ±∞ = 0 on both
  sides alike, and no term is moved across the sum); what IS needed is that the adjacency words are bits — for a word
  2 the kernel adds the row twice where the reference skips it — and the precondition says so.

  The three frames are the generated ones (the reference's is its generated run with the result dropped); the ideal
  pass rewrote nothing, so its conjunct is trivial.
-/
import proofs.«182246_g79061757984936_cont_9to1c4b_501_16_alg».proof.Defs
import proofs.«182246_g79061757984936_cont_9to1c4b_501_16_alg».proof.Proof.Gen.Kernel
import proofs.«182246_g79061757984936_cont_9to1c4b_501_16_alg».proof.Proof.Gen.Kernel.Skeleton
import proofs.«182246_g79061757984936_cont_9to1c4b_501_16_alg».proof.Proof.Gen.Kernel.Launch
import proofs.«182246_g79061757984936_cont_9to1c4b_501_16_alg».proof.Proof.Gen.Kernel.Points
import proofs.«182246_g79061757984936_cont_9to1c4b_501_16_alg».proof.Proof.Gen.Kernel.Frame
import proofs.«182246_g79061757984936_cont_9to1c4b_501_16_alg».proof.Proof.Gen.KernelIdeal
import proofs.«182246_g79061757984936_cont_9to1c4b_501_16_alg».proof.Proof.Gen.KernelIdeal.Skeleton
import proofs.«182246_g79061757984936_cont_9to1c4b_501_16_alg».proof.Proof.Gen.KernelIdeal.Launch
import proofs.«182246_g79061757984936_cont_9to1c4b_501_16_alg».proof.Proof.Gen.KernelIdeal.Points
import proofs.«182246_g79061757984936_cont_9to1c4b_501_16_alg».proof.Proof.Gen.KernelIdeal.Frame
import proofs.«182246_g79061757984936_cont_9to1c4b_501_16_alg».proof.Proof.Gen.ReferenceIdeal
import proofs.«182246_g79061757984936_cont_9to1c4b_501_16_alg».proof.Proof.Gen.Pre_finite_inputs
import proofs.«182246_g79061757984936_cont_9to1c4b_501_16_alg».proof.Proof.Gen.KernelIdeal.Value
import proofs.«182246_g79061757984936_cont_9to1c4b_501_16_alg».proof.Proof.Gen.ReferenceIdeal.Run
import proofs.«182246_g79061757984936_cont_9to1c4b_501_16_alg».proof.Proof.Gen.ReferenceIdeal.Read
import proofs.«182246_g79061757984936_cont_9to1c4b_501_16_alg».proof.Proof.PoolValue
import proofs.«182246_g79061757984936_cont_9to1c4b_501_16_alg».proof.Proof.PoolRef
import proofs.«182246_g79061757984936_cont_9to1c4b_501_16_alg».proof.Proof.PoolPre
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the pooling function of the (agreeing) arguments: the kernel by the blocks' tiling, under the
    precondition's "every adjacency word is a bit"; the reference by reading its five operations at an index. -/
theorem algebraic : Cert.algebraic_KernelIdeal_ReferenceIdeal := by
  intro m ρ m' ρ' hpre hagree
  have hadj : ∀ (c : Dev Cert.KernelIdeal.nD) j,
      m ((c : Thread Cert.KernelIdeal.nD Cert.KernelIdeal.τ).loc Cert.KernelIdeal.main_arg1) j = 0#32
        ∨ m ((c : Thread Cert.KernelIdeal.nD Cert.KernelIdeal.τ).loc Cert.KernelIdeal.main_arg1) j = 1#32 :=
    fun c j => Cert.PoolPre.adj_bit _ _ (hpre c) j
  refine ⟨fun c => Cert.KernelIdeal.PoolValue.pooled m c, Cert.KernelIdeal.PoolValue.run m ρ hadj, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.PoolRef.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
